-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S32x256x1 : Shape := ⟨3, ![32, 256, 1]⟩
abbrev S32 : Shape := ⟨1, ![32]⟩
abbrev S256x32x1 : Shape := ⟨3, ![256, 32, 1]⟩
abbrev S256 : Shape := ⟨1, ![256]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel
  bcast_S_S32x256x1 : S_.BroadcastsInDim S32x256x1 (![] : Fin 0 → Fin S32x256x1.rank)
  reducesTo_S32x256x1_S_d0_1_2 : S32x256x1.ReducesTo [0, 1, 2] S_
  bcast_S_S32 : S_.BroadcastsInDim S32 (![] : Fin 0 → Fin S32.rank)
  reducesTo_S32_S_d0 : S32.ReducesTo [0] S_
  bcast_S_S256x32x1 : S_.BroadcastsInDim S256x32x1 (![] : Fin 0 → Fin S256x32x1.rank)
  reducesTo_S256x32x1_S_d0_1_2 : S256x32x1.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x32x1 1) : IVec S_ 1 :=
  let main_c_5 : IVec S_ 1 := constantI S_ 1 1#1
  let main_v17 : IVec S_ 1 := (fun x v => Host.reduce IntOp.andi x v reducesTo_S256x32x1_S_d0_1_2 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x256x2048 .f32) (main_arg1 : FVec F S32x256x1 .f32) (main_arg2 : FVec F S32 .f32) (main_arg3 : FVec F S256x32x1 .f32) (main_arg4 : FVec F S256 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  let main_v4 : FVec F S32x256x1 .f32 := Host.absf main_arg1
  let main_cst_0 : FVec F S_ .f32 := constant S_ .f32 0x7F800000#32
  let main_v5 : FVec F S32x256x1 .f32 := broadcastInDim S32x256x1 ![] bcast_S_S32x256x1 main_cst_0
  let main_v6 : IVec S32x256x1 1 := cmpf .olt main_v4 main_v5
  let main_c_1 : IVec S_ 1 := constantI S_ 1 1#1
  let main_v7 : IVec S_ 1 := (fun x v => Host.reduce IntOp.andi x v reducesTo_S32x256x1_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32x1 .f32 := Host.absf main_arg3
  let main_cst_4 : FVec F S_ .f32 := constant S_ .f32 0x7F800000#32
  let main_v15 : FVec F S256x32x1 .f32 := broadcastInDim S256x32x1 ![] bcast_S_S256x32x1 main_cst_4
  let main_v16 : IVec S256x32x1 1 := cmpf .olt main_v14 main_v15
  fn_part1 (F := F) main_arg4 main_v13 main_v16
-- ==== Kernel.lean ====
abbrev S64x256x2048 : Shape := ⟨3, ![64, 256, 2048]⟩
abbrev S32x256x1 : Shape := ⟨3, ![32, 256, 1]⟩
abbrev S32 : Shape := ⟨1, ![32]⟩
abbrev S256x32x1 : Shape := ⟨3, ![256, 32, 1]⟩
abbrev S256 : Shape := ⟨1, ![256]⟩
abbrev S32x256 : Shape := ⟨2, ![32, 256]⟩
abbrev S256x32 : Shape := ⟨2, ![256, 32]⟩
abbrev S1x32 : Shape := ⟨2, ![1, 32]⟩
abbrev S1x256 : Shape := ⟨2, ![1, 256]⟩
abbrev S4x256x2048 : Shape := ⟨3, ![4, 256, 2048]⟩
abbrev S4x256 : Shape := ⟨2, ![4, 256]⟩
abbrev S4x32 : Shape := ⟨2, ![4, 32]⟩
abbrev S4x256x1 : Shape := ⟨3, ![4, 256, 1]⟩

abbrev nBuf : Space → Nat
  | .hbm => 10
  | .vmem => 8
  | .smem => 0
  | _ => 0

abbrev bufTy : (tb : Table) → Fin (tcTables nBuf tb) → BufTy
  | .hbm, ⟨0, _⟩ => ⟨S64x256x2048, .f32⟩
  | .hbm, ⟨1, _⟩ => ⟨S32x256x1, .f32⟩
  | .hbm, ⟨2, _⟩ => ⟨S32, .f32⟩
  | .hbm, ⟨3, _⟩ => ⟨S256x32x1, .f32⟩
  | .hbm, ⟨4, _⟩ => ⟨S256, .f32⟩
  | .hbm, ⟨5, _⟩ => ⟨S32x256, .f32⟩
  | .hbm, ⟨6, _⟩ => ⟨S256x32, .f32⟩
  | .hbm, ⟨7, _⟩ => ⟨S1x32, .f32⟩
  | .hbm, ⟨8, _⟩ => ⟨S1x256, .f32⟩
  | .hbm, ⟨9, _⟩ => ⟨S64x256x2048, .f32⟩
  | .local _ .vmem, ⟨0, _⟩ => ⟨S4x256x2048, .f32⟩
  | .local _ .vmem, ⟨1, _⟩ => ⟨S4x256x2048, .f32⟩
  | .local _ .vmem, ⟨2, _⟩ => ⟨S32x256, .f32⟩
  | .local _ .vmem, ⟨3, _⟩ => ⟨S1x32, .f32⟩
  | .local _ .vmem, ⟨4, _⟩ => ⟨S256x32, .f32⟩
  | .local _ .vmem, ⟨5, _⟩ => ⟨S1x256, .f32⟩
  | .local _ .vmem, ⟨6, _⟩ => ⟨S4x256x2048, .f32⟩
  | .local _ .vmem, ⟨7, _⟩ => ⟨S4x256x2048, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x1_S32x256 : S32x256x1.ShapeCasts S32x256
  shapeCasts_S256x32x1_S256x32 : S256x32x1.ShapeCasts S256x32
  shapeCasts_S32_S1x32 : S32.ShapeCasts S1x32
  shapeCasts_S256_S1x256 : S256.ShapeCasts S1x256
  inb_S4x256x2048_S4x256x2048_0_0_0 : ∀ a, (![0, 0, 0] : Fin 3 → Nat) a + S4x256x2048.size a ≤ S4x256x2048.size a
  h_S4x256x2048 : 0 < S4x256x2048.numel
  reduces_S4x256x2048_S4x256 : S4x256x2048.Reduces [2] S4x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4x32 : S1x32.Broadcasts S4x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4x256 : S1x256.Broadcasts S4x256
  shapeCasts_S4x256_S4x256x1 : S4x256.ShapeCasts S4x256x1
  broadcasts_S4x256x1_S4x256x2048 : S4x256x1.Broadcasts S4x256x2048
  dot_S4x256_S32x256_S4x32_1_1_0_0_n_n_wf : DotDims.WF S4x256 S32x256 S4x32 [1] [1] [0] [0] [] []
  dot_S4x32_S256x32_S4x256_1_1_0_0_n_n_wf : DotDims.WF S4x32 S256x32 S4x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S64x256x2048.size a
  hwx0_0 : ∀ i : grid0.Coords, EltTy.bits .f32 = 32 ∨ (Rect.block (s := S64x256x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x2048.size a ≤ S64x256x2048.size a
  hwx0_5 : ∀ i : grid0.Coords, EltTy.bits .f32 = 32 ∨ (Rect.block (s := S64x256x2048) S4x256x2048.size (cc0_transform_5 i) (hinb0_5 i)).WholeWords (EltTy.packing .f32)

variable [Facts₀]

def dot_S4x256_S32x256_S4x32_1_1_0_0_n_n : DotDims S4x256 S32x256 S4x32 where
  lhsContracting := [1]
  rhsContracting := [1]
  lhsNonContracting := [0]
  rhsNonContracting := [0]
  lhsBatch := []
  rhsBatch := []
  wf := dot_S4x256_S32x256_S4x32_1_1_0_0_n_n_wf
def dot_S4x32_S256x32_S4x256_1_1_0_0_n_n : DotDims S4x32 S256x32 S4x256 where
  lhsContracting := [1]
  rhsContracting := [1]
  lhsNonContracting := [0]
  rhsNonContracting := [0]
  lhsBatch := []
  rhsBatch := []
  wf := dot_S4x32_S256x32_S4x256_1_1_0_0_n_n_wf

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x2048 : Shape := ⟨3, ![64, 256, 2048]⟩
abbrev S32x256x1 : Shape := ⟨3, ![32, 256, 1]⟩
abbrev S32 : Shape := ⟨1, ![32]⟩
abbrev S256x32x1 : Shape := ⟨3, ![256, 32, 1]⟩
abbrev S256 : Shape := ⟨1, ![256]⟩
abbrev S32x256 : Shape := ⟨2, ![32, 256]⟩
abbrev S256x32 : Shape := ⟨2, ![256, 32]⟩
abbrev S32x1 : Shape := ⟨2, ![32, 1]⟩
abbrev S256x1 : Shape := ⟨2, ![256, 1]⟩
abbrev S1x256x2048 : Shape := ⟨3, ![1, 256, 2048]⟩
abbrev S256x2048 : Shape := ⟨2, ![256, 2048]⟩

abbrev nBuf : Space → Nat
  | .hbm => 10
  | .vmem => 8
  | .smem => 0
  | _ => 0

abbrev bufTy : (tb : Table) → Fin (tcTables nBuf tb) → BufTy
  | .hbm, ⟨0, _⟩ => ⟨S64x256x2048, .f32⟩
  | .hbm, ⟨1, _⟩ => ⟨S32x256x1, .f32⟩
  | .hbm, ⟨2, _⟩ => ⟨S32, .f32⟩
  | .hbm, ⟨3, _⟩ => ⟨S256x32x1, .f32⟩
  | .hbm, ⟨4, _⟩ => ⟨S256, .f32⟩
  | .hbm, ⟨5, _⟩ => ⟨S32x256, .f32⟩
  | .hbm, ⟨6, _⟩ => ⟨S256x32, .f32⟩
  | .hbm, ⟨7, _⟩ => ⟨S32x1, .f32⟩
  | .hbm, ⟨8, _⟩ => ⟨S256x1, .f32⟩
  | .hbm, ⟨9, _⟩ => ⟨S64x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S32x256, .f32⟩
  | .local _ .vmem, ⟨3, _⟩ => ⟨S32x1, .f32⟩
  | .local _ .vmem, ⟨4, _⟩ => ⟨S256x32, .f32⟩
  | .local _ .vmem, ⟨5, _⟩ => ⟨S256x1, .f32⟩
  | .local _ .vmem, ⟨6, _⟩ => ⟨S1x256x2048, .f32⟩
  | .local _ .vmem, ⟨7, _⟩ => ⟨S1x256x2048, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x1_S32x256 : S32x256x1.ShapeCasts S32x256
  shapeCasts_S256x32x1_S256x32 : S256x32x1.ShapeCasts S256x32
  shapeCasts_S32_S32x1 : S32.ShapeCasts S32x1
  shapeCasts_S256_S256x1 : S256.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  shapeCasts_S256x2048_S1x256x2048 : S256x2048.ShapeCasts S1x256x2048
  dot_S32x256_S256x1_S32x1_1_0_0_1_n_n_wf : DotDims.WF S32x256 S256x1 S32x1 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S64x256x2048.size a
  hwx0_0 : ∀ i : grid0.Coords, EltTy.bits .f32 = 32 ∨ (Rect.block (s := S64x256x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S64x256x2048.size a
  hwx0_5 : ∀ i : grid0.Coords, EltTy.bits .f32 = 32 ∨ (Rect.block (s := S64x256x2048) S1x256x2048.size (cc0_transform_5 i) (hinb0_5 i)).WholeWords (EltTy.packing .f32)

variable [Facts₀]

def dot_S32x256_S256x1_S32x1_1_0_0_1_n_n : DotDims S32x256 S256x1 S32x1 where
  lhsContracting := [1]
  rhsContracting := [0]
  lhsNonContracting := [0]
  rhsNonContracting := [1]
  lhsBatch := []
  rhsBatch := []
  wf := dot_S32x256_S256x1_S32x1_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  Squeeze-and-excitation along the channels of a [64, 256, 2048] array, as ONE function of the five argument arrays.

  For a batch element `b` let `mean c'` be the sum of `x (b, c', ·)` over the 2048 positions times 2⁻¹¹. The
  hidden layer is `h m = max (∑ c', mean c' · w1 (m, c') + b1 m) 0` for the 32 hidden units, the gate of channel `c`
  is `logistic (∑ m, h m · w2 (c, m) + b2 c)`, and the result at `(b, c, l)` is `x (b, c, l)` times that gate.
  Everything is over the extended reals; no entry is assumed finite. The one law used between the two programs of
  this certificate is stated here too: a quotient by 2048 is the product with 2⁻¹¹ on every extended real, since
  2048 is a nonzero real number.
-/
import Idealize.ShloMosaic.PureOps.Ideal
import Idealize.ShloMosaic.Lib.ValueIdx

noncomputable section

open scoped BigOperators

namespace Cert.SqueezeExcite

open Idealize.ShloMosaic Idealize.ShloMosaic.ValueIdx

/-- The word `0x45000000` denotes the real number 2048. -/
theorem ofBits_2048 : Ideal.ofBits .f32 0x45000000#32 = ((2048 : ℝ) : EReal) := by
  simp [Ideal.ofBits, Ideal.ieee, -EReal.coe_mul]; norm_num

/-- The word `0x3A000000` denotes the real number 1 / 2048. -/
theorem ofBits_inv_2048 : Ideal.ofBits .f32 0x3A000000#32 = ((1 / 2048 : ℝ) : EReal) := by
  simp [Ideal.ofBits, Ideal.ieee, -EReal.coe_mul]; norm_num

/-- A quotient by 2048 is the product with 1 / 2048, at every extended real (the infinities included). -/
theorem div_2048 (s : EReal) :
    Ideal.div s (Ideal.ofBits .f32 0x45000000#32) = s * Ideal.ofBits .f32 0x3A000000#32 := by
  rw [ofBits_2048, ofBits_inv_2048, Ideal.div_coe (by norm_num : (2048 : ℝ) ≠ 0)]

/-- THE GATE of channel `c` for one batch element whose rows are `xs`: the mean of every channel, the hidden layer
    with its bias and rectifier, the output layer with its bias, and the logistic function. -/
def gate (xs : Fin 256 → Fin 2048 → EReal) (w1 : Fin 32 → Fin 256 → EReal) (b1 : Fin 32 → EReal)
    (w2 : Fin 256 → Fin 32 → EReal) (b2 : Fin 256 → EReal) (c : Fin 256) : EReal :=
  Ideal.logistic ((∑ m : Fin 32,
      max ((∑ c' : Fin 256, ((∑ l : Fin 2048, xs c' l) * Ideal.ofBits .f32 0x3A000000#32) * w1 m c') + b1 m)
        (Ideal.ofBits .f32 0x00000000#32) * w2 c m) + b2 c)

/-- The gate depends on its five arguments only through their values. -/
theorem gate_congr {xs xs' : Fin 256 → Fin 2048 → EReal} {w1 w1' : Fin 32 → Fin 256 → EReal} {b1 b1' : Fin 32 → EReal}
    {w2 w2' : Fin 256 → Fin 32 → EReal} {b2 b2' : Fin 256 → EReal}
    (hx : ∀ c' l, xs c' l = xs' c' l) (h1 : ∀ mm c', w1 mm c' = w1' mm c') (h2 : ∀ mm, b1 mm = b1' mm)
    (h3 : ∀ cc mm, w2 cc mm = w2' cc mm) (h4 : ∀ cc, b2 cc = b2' cc) (cc : Fin 256) :
    gate xs w1 b1 w2 b2 cc = gate xs' w1' b1' w2' b2' cc := by
  have e0 : xs = xs' := funext fun c' => funext fun l => hx c' l
  have e1 : w1 = w1' := funext fun mm => funext fun c' => h1 mm c'
  have e2 : b1 = b1' := funext h2
  have e3 : w2 = w2' := funext fun a => funext fun b => h3 a b
  have e4 : b2 = b2' := funext h4
  rw [e0, e1, e2, e3, e4]

/-- THE RESULT ARRAY as a function of the argument arrays: every entry times the gate of its batch element and
    channel. The weights arrive with a trailing unit axis and the biases as vectors. -/
def G (x : (⟨3, ![64, 256, 2048]⟩ : Shape).Idx → EReal) (w1 : (⟨3, ![32, 256, 1]⟩ : Shape).Idx → EReal)
    (b1 : (⟨1, ![32]⟩ : Shape).Idx → EReal) (w2 : (⟨3, ![256, 32, 1]⟩ : Shape).Idx → EReal)
    (b2 : (⟨1, ![256]⟩ : Shape).Idx → EReal) : (⟨3, ![64, 256, 2048]⟩ : Shape).Idx → EReal :=
  fun i => x i * gate (fun c' l => x (ix3 (show Fin 64 from i 0) c' l)) (fun m c' => w1 (ix3 m c' (0 : Fin 1)))
    (fun m => b1 (ix1 m)) (fun c m => w2 (ix3 c m (0 : Fin 1))) (fun c => b2 (ix1 c)) (show Fin 256 from i 1)

/-- `G` at the entry `(b, c, l)`. -/
theorem G_apply (x : (⟨3, ![64, 256, 2048]⟩ : Shape).Idx → EReal) (w1 : (⟨3, ![32, 256, 1]⟩ : Shape).Idx → EReal)
    (b1 : (⟨1, ![32]⟩ : Shape).Idx → EReal) (w2 : (⟨3, ![256, 32, 1]⟩ : Shape).Idx → EReal)
    (b2 : (⟨1, ![256]⟩ : Shape).Idx → EReal) (b : Fin 64) (c : Fin 256) (l : Fin 2048) :
    G x w1 b1 w2 b2 (ix3 b c l)
      = x (ix3 b c l) * gate (fun c' l' => x (ix3 b c' l')) (fun m c' => w1 (ix3 m c' (0 : Fin 1)))
          (fun m => b1 (ix1 m)) (fun c m => w2 (ix3 c m (0 : Fin 1))) (fun c => b2 (ix1 c)) c := rfl

end Cert.SqueezeExcite

end
-- ==== Proof.LibContractLast.lean ====
/-
  A matrix product that contracts the LAST axis of both operands, read at an entry, generic in the sizes.

  For an `A × K` left operand and a `B × K` right operand the product's entry `(i, j)` is the sum over the
  contracted coordinate `k` of `l (i, k) · r (j, k)` — the left operand times the transpose of the right one. Over
  the extended reals this holds of the host's `dot_general` with these dimension numbers (`dotLast_apply`) and of the
  kernel's matrix product accumulated into a zero constant (`matmulLast_zero_apply`), whatever the operands' float
  formats: at the ideal values a change of format is the identity and the accumulator `0` is the neutral element.
-/
import Idealize.ShloMosaic.Lib.ValueIdx
import Idealize.ShloMosaic.PureOps.Ideal.Laws

noncomputable section

open scoped BigOperators

namespace Cert.LibContractLast

open Idealize.ShloMosaic Idealize.ShloMosaic.ValueIdx

/-- The dimension numbers of the product of an `A × K` matrix with the transpose of a `B × K` matrix: axis 1 of each
    operand contracted, no batch axes. -/
abbrev lastDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

/-- The sum over the contraction index of these dimension numbers, at the entry `(i, j)`, is the sum over the
    shared last coordinate `k` of the left operand at `(i, k)` times the right operand at `(j, k)`. -/
theorem contraction_eq {α : Type} [AddCommMonoid α] [Mul α] (A K B : Nat)
    (wf : DotDims.WF ⟨2, ![A, K]⟩ ⟨2, ![B, K]⟩ ⟨2, ![A, B]⟩ [1] [1] [0] [0] [] [])
    (l : (⟨2, ![A, K]⟩ : Shape).Idx → α) (r : (⟨2, ![B, K]⟩ : Shape).Idx → α) (i : Fin A) (j : Fin B) :
    ∑ q : (lastDims A K B wf).contr.Idx,
        l ((lastDims A K B wf).lhsIdx (ix2 i j) q) * r ((lastDims A K B wf).rhsIdx (ix2 i j) q)
      = ∑ k : Fin K, l (ix2 i k) * r (ix2 j k) := by
  rw [← Equiv.sum_comp (contrEquiv1 (lastDims A K B wf) K rfl rfl).symm]
  refine Finset.sum_congr rfl fun c _ => ?_
  have c2 := contrEquiv1_symm_val (lastDims A K B wf) K rfl rfl c
  have l2 : (lastDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (lastDims A K B wf).rhsIdx (ix2 i j) ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- THE HOST'S PRODUCT read at `(i, j)`, over the extended reals. -/
theorem dotLast_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    Host.dotGeneral (lastDims A K B wf) prec l r (ix2 i j) = ∑ k : Fin K, l (ix2 i k) * r (ix2 j k) := by
  show FloatOps.dotGeneral _ prec _ l r (ix2 i j) = _
  rw [Ideal.dotGeneral_apply]
  exact contraction_eq A K B wf l r i j

/-- THE KERNEL'S PRODUCT INTO A ZERO ACCUMULATOR read at `(i, j)`, over the extended reals: the same sum. -/
theorem matmulLast_zero_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    FloatOps.matmul (lastDims A K B wf) prec l r (constant (F := Ideal) ⟨2, ![A, B]⟩ .f32 0x00000000#32) (ix2 i j)
      = ∑ k : Fin K, l (ix2 i k) * r (ix2 j k) := by
  rw [Ideal.matmul_constant_zero_apply]
  exact contraction_eq A K B wf l r i j

end Cert.LibContractLast

end
-- ==== Proof.LibGroupExpand.lean ====
/-
  A per-group value repeated over the members of its group, read at an index.

  An `[a, b]` array (one value per row `i` and group `j`) is given a trailing unit axis, repeated `c` times along
  it, and the last two axes are merged: the result is the `[a, b * c]` array whose entry `(i, k)` is the value of
  row `i`'s group `k / c`. The three steps are read at an index one by one, generic in the sizes, and then composed.
-/
import Idealize.ShloMosaic.Lib.ValueIdx
import Idealize.ShloMosaic.Lib.Pipeline.Value
import Idealize.ShloMosaic.Lib.ValueLayout

noncomputable section

namespace Cert.LibGroupExpand

open Idealize.ShloMosaic Idealize.ShloMosaic.ValueIdx

variable {α : Type}

/-- An `[a, b]` array cast to `[a, b, 1]` reads, at `(i, j, u)`, the operand at `(i, j)`, whatever the unit
    coordinate `u`: both positions are `i * b + j` in row-major order. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`: the unit axis
    is the one repeated. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c]` array cast to `[a, n]` with `n = b * c` reads, at `(i, k)`, the operand at
    `(i, k / c, k % c)`: position `i * n + k` is `(i * b + k / c) * c + k % c`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (k : Fin n)
    (g : Fin b) (l : Fin c) (hg : g.val = k.val / c) (hl : l.val = k.val % c) :
    shapeCast ⟨2, ![a, n]⟩ x h (ix2 i k) = x (ix3 i g l) :=
  shapeCast_apply x h _ _ (by
    rw [Shape.rowMajor_val_three, Shape.rowMajor_val_two]
    show (i.val * b + g.val) * c + l.val = i.val * n + k.val
    have e : i.val * n = i.val * b * c := by rw [hn, Nat.mul_assoc]
    rw [hg, hl, e, Nat.add_mul, Nat.add_assoc, Nat.div_add_mod' k.val c])

/-- THE EXPANSION READ AT AN INDEX: an `[a, b]` array given a trailing unit axis, repeated `c` times along it and
    merged to `[a, n]`, `n = b * c`, reads at `(i, k)` the operand at `(i, k / c)`. -/
theorem expand_apply {a b c n : ℕ} (hn : n = b * c) (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (h3 : (⟨3, ![a, b, c]⟩ : Shape).ShapeCasts ⟨2, ![a, n]⟩) (i : Fin a) (k : Fin n)
    (g : Fin b) (hg : g.val = k.val / c) :
    shapeCast ⟨2, ![a, n]⟩ (broadcastTo ⟨3, ![a, b, c]⟩ (shapeCast ⟨3, ![a, b, 1]⟩ x h1) h2) h3 (ix2 i k) = x (ix2 i g) := by
  have hc : 0 < c := by
    rcases Nat.eq_zero_or_pos c with h0 | h0
    · have hk := k.isLt
      have e : n = 0 := by rw [hn, h0, Nat.mul_zero]
      omega
    · exact h0
  rw [shapeCast_abc_an_apply hn _ h3 i k g ⟨k.val % c, Nat.mod_lt _ hc⟩ hg rfl,
    broadcastTo_ab1_abc_apply _ h2 i g _, shapeCast_ab_ab1_apply x h1 i g _]

end Cert.LibGroupExpand

end
-- ==== Proof.KernelPay.lean ====
/-
  The kernel's stored block read at an entry: for the block of four batch elements that a grid point holds, the
  value stored at `(p, c, l)` is the block's entry there times the gate of batch element `p` and channel `c`, the
  gate computed from the block's own rows, the weight matrices as staged (`[32, 256]` and `[256, 32]`) and the two
  biases as one-row matrices.
-/
import proofs.«130919_g2000605190125749_pallasbulk_600_7_alg».proof.Proof.Gen.KernelIdeal.Skeleton
import proofs.«130919_g2000605190125749_pallasbulk_600_7_alg».proof.Proof.Spec
import proofs.«130919_g2000605190125749_pallasbulk_600_7_alg».proof.Proof.LibContractLast
import proofs.«130919_g2000605190125749_pallasbulk_600_7_alg».proof.Proof.LibGroupExpand
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SqueezeExcite.KernelSide

open Idealize.ShloMosaic Idealize.ShloMosaic.ValueIdx Cert.KernelIdeal Cert.KernelIdeal.Gen Cert.SqueezeExcite

/-- The mean of channel `c'` of batch element `p` of the block: the sum over the positions times 2⁻¹¹. -/
theorem mean_apply (x0 : FVec Ideal S4x256x2048 .f32) (p : Fin 4) (c' : Fin 256) :
    mulf (multiReduction (F := Ideal) .add [2] S4x256 x0 0x00000000#32 reduces_S4x256x2048_S4x256 (.inl rfl) rfl)
        (broadcast S4x256 (Scalar.ofBits (F := Ideal) .f32 0x3A000000#32)) (ix2 p c')
      = (∑ l : Fin 2048, x0 (ix3 p c' l)) * Ideal.ofBits .f32 0x3A000000#32 := by
  show multiReduction (F := Ideal) .add [2] S4x256 x0 0x00000000#32 reduces_S4x256x2048_S4x256 (.inl rfl) rfl (ix2 p c') * _ = _
  refine congrArg (· * Ideal.ofBits .f32 0x3A000000#32) ?_
  refine (Ideal.multiReduction_add_single x0 0x00000000#32 reduces_S4x256x2048_S4x256 (.inl rfl) rfl (ix2 p c')).trans ?_
  refine Finset.sum_congr rfl fun l _ => congrArg x0 ?_
  funext a; apply Fin.ext
  match a with
  | ⟨0, _⟩ => rfl
  | ⟨1, _⟩ => rfl
  | ⟨2, _⟩ => rfl

/-- The hidden layer at `(p, m)` from any vector of means `v`: the product with the transpose of the staged
    `[32, 256]` weights, the bias row repeated over the four batch elements, and the rectifier. -/
theorem hidden_apply (v : FVec Ideal S4x256 .f32) (x1 : FVec Ideal S32x256 .f32) (x2 : FVec Ideal S1x32 .f32)
    (p : Fin 4) (m : Fin 32) :
    maximumf (addf (matmul dot_S4x256_S32x256_S4x32_1_1_0_0_n_n (some .fp32) v
            (shapeCast S32x256 x1 shapeCasts_S32x256_S32x256) (constant (F := Ideal) S4x32 .f32 0x00000000#32))
          (broadcastTo S4x32 (shapeCast S1x32 x2 shapeCasts_S1x32_S1x32) broadcasts_S1x32_S4x32))
        (broadcast S4x32 (Scalar.ofBits (F := Ideal) .f32 0x00000000#32)) (ix2 p m)
      = max ((∑ c' : Fin 256, v (ix2 p c') * x1 (ix2 m c')) + x2 (ix2 (0 : Fin 1) m))
          (Ideal.ofBits .f32 0x00000000#32) := by
  show max (matmul dot_S4x256_S32x256_S4x32_1_1_0_0_n_n (some .fp32) v
        (shapeCast S32x256 x1 shapeCasts_S32x256_S32x256) (constant (F := Ideal) S4x32 .f32 0x00000000#32) (ix2 p m)
      + broadcastTo S4x32 (shapeCast S1x32 x2 shapeCasts_S1x32_S1x32) broadcasts_S1x32_S4x32 (ix2 p m)) _ = _
  rw [shapeCast_self, shapeCast_self, broadcastTo_1b_ab_apply]
  refine congrArg (fun z => max (z + x2 (ix2 (0 : Fin 1) m)) (Ideal.ofBits .f32 0x00000000#32)) ?_
  exact Cert.LibContractLast.matmulLast_zero_apply 4 256 32 dot_S4x256_S32x256_S4x32_1_1_0_0_n_n_wf (some .fp32) v x1 p m

/-- The gate at `(p, c)` from any hidden layer `h`: the product with the transpose of the staged `[256, 32]`
    weights, the bias row repeated over the four batch elements, and the logistic function. -/
theorem out_apply (h : FVec Ideal S4x32 .f32) (x3 : FVec Ideal S256x32 .f32) (x4 : FVec Ideal S1x256 .f32)
    (p : Fin 4) (c : Fin 256) :
    logistic (addf (matmul dot_S4x32_S256x32_S4x256_1_1_0_0_n_n (some .fp32) h
            (shapeCast S256x32 x3 shapeCasts_S256x32_S256x32) (constant (F := Ideal) S4x256 .f32 0x00000000#32))
          (broadcastTo S4x256 (shapeCast S1x256 x4 shapeCasts_S1x256_S1x256) broadcasts_S1x256_S4x256)) (ix2 p c)
      = Ideal.logistic ((∑ m : Fin 32, h (ix2 p m) * x3 (ix2 c m)) + x4 (ix2 (0 : Fin 1) c)) := by
  show Ideal.logistic (matmul dot_S4x32_S256x32_S4x256_1_1_0_0_n_n (some .fp32) h
        (shapeCast S256x32 x3 shapeCasts_S256x32_S256x32) (constant (F := Ideal) S4x256 .f32 0x00000000#32) (ix2 p c)
      + broadcastTo S4x256 (shapeCast S1x256 x4 shapeCasts_S1x256_S1x256) broadcasts_S1x256_S4x256 (ix2 p c)) = _
  rw [shapeCast_self, shapeCast_self, broadcastTo_1b_ab_apply]
  refine congrArg (fun z => Ideal.logistic (z + x4 (ix2 (0 : Fin 1) c))) ?_
  exact Cert.LibContractLast.matmulLast_zero_apply 4 32 256 dot_S4x32_S256x32_S4x256_1_1_0_0_n_n_wf (some .fp32) h x3 p c

/-- THE STORED BLOCK AT AN ENTRY: the block's entry times the gate of its batch element and channel. -/
theorem pay_apply (x0 : FVec Ideal S4x256x2048 .f32) (x1 : FVec Ideal S32x256 .f32) (x2 : FVec Ideal S1x32 .f32)
    (x3 : FVec Ideal S256x32 .f32) (x4 : FVec Ideal S1x256 .f32) (p : Fin 4) (c : Fin 256) (l : Fin 2048) :
    k0_pay1 (F := Ideal) x0 x1 x2 x3 x4 (ix3 p c l)
      = x0 (ix3 p c l) * gate (fun c' l' => x0 (ix3 p c' l')) (fun m c' => x1 (ix2 m c'))
          (fun m => x2 (ix2 (0 : Fin 1) m)) (fun c m => x3 (ix2 c m)) (fun c => x4 (ix2 (0 : Fin 1) c)) c := by
  unfold k0_pay1
  dsimp only
  rw [mulf_apply]
  refine congrArg (x0 (ix3 p c l) * ·) ?_
  rw [Cert.LibGroupExpand.broadcastTo_ab1_abc_apply, Cert.LibGroupExpand.shapeCast_ab_ab1_apply]
  refine (out_apply _ x3 x4 p c).trans ?_
  unfold gate
  refine congrArg (fun z => Ideal.logistic (z + x4 (ix2 (0 : Fin 1) c))) (Finset.sum_congr rfl fun m _ => ?_)
  refine congrArg (· * x3 (ix2 c m)) ?_
  refine (hidden_apply _ x1 x2 p m).trans ?_
  refine congrArg (fun z => max (z + x2 (ix2 (0 : Fin 1) m)) (Ideal.ofBits .f32 0x00000000#32)) (Finset.sum_congr rfl fun c' _ => ?_)
  exact congrArg (· * x1 (ix2 m c')) (mean_apply x0 p c')

end Cert.SqueezeExcite.KernelSide

end
-- ==== Proof.LibTrailingUnit.lean ====
/-
  A trailing unit axis dropped by a reshape, read at an index: an `[a, b, 1]` array viewed as the `[a, b]` matrix.
  (The library has the leading-unit-axis forms; this is the trailing one, which a weight tensor with a unit last
  axis needs.)
-/
import Idealize.ShloMosaic.Lib.Pipeline.Value
import Idealize.ShloMosaic.Lib.ValueIdx

namespace Cert.LibTrailingUnit

open Idealize.ShloMosaic Idealize.ShloMosaic.ValueIdx

variable {α : Type}

/-- An `[a, b, 1]` array reshaped to `[a, b]` reads, at `(i, j)`, the operand at `(i, j, 0)`: both positions are
    `i * b + j` in row-major order. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

end Cert.LibTrailingUnit
-- ==== Proof.KernelValue.lean ====
/-
  The kernel's result array as one function of the argument arrays.

  The grid has sixteen points; point `t` holds batch elements `4t … 4t + 3` of the input and writes the same rows
  of the result. The two weight arrays reach the body reshaped from `[32, 256, 1]` and `[256, 32, 1]` to matrices and
  the two biases reshaped to one-row matrices, each staged whole at every point. So the block that point `t`
  writes back is block `t` of `G` of the argument arrays, the sixteen blocks cover the array, and the array ends
  at `G`.
-/
import proofs.«130919_g2000605190125749_pallasbulk_600_7_alg».proof.Proof.Gen.KernelIdeal.Value
import proofs.«130919_g2000605190125749_pallasbulk_600_7_alg».proof.Proof.KernelPay
import proofs.«130919_g2000605190125749_pallasbulk_600_7_alg».proof.Proof.LibTrailingUnit
import Idealize.ShloMosaic.Lib.Pipeline.Value
import Idealize.ShloMosaic.Lib.StableHlo.Run
import Idealize.ShloMosaic.Lib.ValueLayout

noncomputable section

open scoped BigOperators

namespace Cert.SqueezeExcite.KernelSide

open Idealize.ShloMosaic Idealize.ShloMosaic.TcCoe Idealize.SL.Sem Idealize.ShloMosaic.ValueIdx
open Idealize.ShloMosaic.Pipeline (Dat)
open Cert.KernelIdeal Cert.KernelIdeal.Gen Cert.SqueezeExcite

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input and the result move along the batch axis with the point, the
    four small operands stay at their one block. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## What the region finds in the four reshaped operands -/

theorem V_w1 (c : Dev nD) : (V m c main_v0 : S32x256.Idx → Elt Ideal .f32)
    = shapeCast S32x256 (m ((c : Thread nD τ).loc main_arg1)) shapeCasts_S32x256x1_S32x256 := by
  dsimp only [V, hostOps0]; after_results; rfl

theorem V_w2 (c : Dev nD) : (V m c main_v1 : S256x32.Idx → Elt Ideal .f32)
    = shapeCast S256x32 (m ((c : Thread nD τ).loc main_arg3)) shapeCasts_S256x32x1_S256x32 := by
  dsimp only [V, hostOps0]; after_results; rfl

theorem V_b1 (c : Dev nD) : (V m c main_v2 : S1x32.Idx → Elt Ideal .f32)
    = shapeCast S1x32 (m ((c : Thread nD τ).loc main_arg2)) shapeCasts_S32_S1x32 := by
  dsimp only [V, hostOps0]; after_results; rfl

theorem V_b2 (c : Dev nD) : (V m c main_v3 : S1x256.Idx → Elt Ideal .f32)
    = shapeCast S1x256 (m ((c : Thread nD τ).loc main_arg4)) shapeCasts_S256_S1x256 := by
  dsimp only [V, hostOps0]; after_results; rfl

/-! ## The blocks the body is given at point `t` -/

/-- The input block at point `t` is batch elements `4t … 4t + 3` of the argument. -/
theorem blk_x (c : Dev nD) (t : Fin cfg0.N) (y : S4x256x2048.Idx) (k : S64x256x2048.Idx)
    (h0 : (k 0).val = 4 * t.val + (y 0).val) (h1 : (k 1).val = (y 1).val) (h2 : (k 2).val = (y 2).val) :
    (iblk m c 0 t : Vec Ideal S4x256x2048 .f32) y
      = (m ((c : Thread nD τ).loc main_arg0) : S64x256x2048.Idx → Elt Ideal .f32) k := by
  obtain ⟨e0, e1, e2, -⟩ := idx_facts t
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t (0 : Fin 3) * 4 + 1 * (y 0).val = (k 0).val; rw [e0, h0]; omega
  | ⟨1, _⟩ => show win0_0.index t (1 : Fin 3) * 256 + 1 * (y 1).val = (k 1).val; rw [e1, h1]; omega
  | ⟨2, _⟩ => show win0_0.index t (2 : Fin 3) * 2048 + 1 * (y 2).val = (k 2).val; rw [e2, h2]; omega

/-- The staged first-layer weights at `(mm, c')` are the argument's at `(mm, c', 0)`. -/
theorem blk_w1 (c : Dev nD) (t : Fin cfg0.N) (mm : Fin 32) (c' : Fin 256) :
    (iblk m c 1 t : Vec Ideal S32x256 .f32) (ix2 mm c')
      = (m ((c : Thread nD τ).loc main_arg1) : S32x256x1.Idx → Elt Ideal .f32) (ix3 mm c' (0 : Fin 1)) := by
  obtain ⟨-, -, -, -, -, -, e0, e1, -⟩ := idx_facts t
  unfold iblk
  rw [View.read_apply]
  show V m c main_v0 _ = _
  rw [V_w1]
  refine Eq.trans (congrArg _ ?_) (Cert.LibTrailingUnit.shapeCast_ab1_ab_apply _ shapeCasts_S32x256x1_S32x256 mm c')
  funext a; apply Fin.ext
  match a with
  | ⟨0, _⟩ => show win0_1.index t (0 : Fin 2) * 32 + 1 * mm.val = mm.val; rw [e0]; omega
  | ⟨1, _⟩ => show win0_1.index t (1 : Fin 2) * 256 + 1 * c'.val = c'.val; rw [e1]; omega

/-- The staged first-layer bias at `(0, mm)` is the argument's at `mm`. -/
theorem blk_b1 (c : Dev nD) (t : Fin cfg0.N) (mm : Fin 32) :
    (iblk m c 2 t : Vec Ideal S1x32 .f32) (ix2 (0 : Fin 1) mm)
      = (m ((c : Thread nD τ).loc main_arg2) : S32.Idx → Elt Ideal .f32) (ix1 mm) := by
  obtain ⟨-, -, -, -, -, -, -, -, e0, e1, -⟩ := idx_facts t
  unfold iblk
  rw [View.read_apply]
  show V m c main_v2 _ = _
  rw [V_b1]
  refine Eq.trans (congrArg _ ?_) (shapeCast_a_1a_apply _ shapeCasts_S32_S1x32 (0 : Fin 1) mm)
  funext a; apply Fin.ext
  match a with
  | ⟨0, _⟩ => show win0_2.index t (0 : Fin 2) * 1 + 1 * 0 = 0; rw [e0]
  | ⟨1, _⟩ => show win0_2.index t (1 : Fin 2) * 32 + 1 * mm.val = mm.val; rw [e1]; omega

/-- The staged second-layer weights at `(cc, mm)` are the argument's at `(cc, mm, 0)`. -/
theorem blk_w2 (c : Dev nD) (t : Fin cfg0.N) (cc : Fin 256) (mm : Fin 32) :
    (iblk m c 3 t : Vec Ideal S256x32 .f32) (ix2 cc mm)
      = (m ((c : Thread nD τ).loc main_arg3) : S256x32x1.Idx → Elt Ideal .f32) (ix3 cc mm (0 : Fin 1)) := by
  obtain ⟨-, -, -, -, -, -, -, -, -, -, e0, e1, -⟩ := idx_facts t
  unfold iblk
  rw [View.read_apply]
  show V m c main_v1 _ = _
  rw [V_w2]
  refine Eq.trans (congrArg _ ?_) (Cert.LibTrailingUnit.shapeCast_ab1_ab_apply _ shapeCasts_S256x32x1_S256x32 cc mm)
  funext a; apply Fin.ext
  match a with
  | ⟨0, _⟩ => show win0_3.index t (0 : Fin 2) * 256 + 1 * cc.val = cc.val; rw [e0]; omega
  | ⟨1, _⟩ => show win0_3.index t (1 : Fin 2) * 32 + 1 * mm.val = mm.val; rw [e1]; omega

/-- The staged second-layer bias at `(0, cc)` is the argument's at `cc`. -/
theorem blk_b2 (c : Dev nD) (t : Fin cfg0.N) (cc : Fin 256) :
    (iblk m c 4 t : Vec Ideal S1x256 .f32) (ix2 (0 : Fin 1) cc)
      = (m ((c : Thread nD τ).loc main_arg4) : S256.Idx → Elt Ideal .f32) (ix1 cc) := by
  obtain ⟨-, -, -, -, -, -, -, -, -, -, -, -, e0, e1⟩ := idx_facts t
  unfold iblk
  rw [View.read_apply]
  show V m c main_v3 _ = _
  rw [V_b2]
  refine Eq.trans (congrArg _ ?_) (shapeCast_a_1a_apply _ shapeCasts_S256_S1x256 (0 : Fin 1) cc)
  funext a; apply Fin.ext
  match a with
  | ⟨0, _⟩ => show win0_4.index t (0 : Fin 2) * 1 + 1 * 0 = 0; rw [e0]
  | ⟨1, _⟩ => show win0_4.index t (1 : Fin 2) * 256 + 1 * cc.val = cc.val; rw [e1]; omega

/-! ## The result array -/

/-- The result array the kernel ends with: `G` of the argument arrays as launched. -/
abbrev result (c : Dev nD) : S64x256x2048.Idx → Elt Ideal .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz3]
  simp only [View.ld_unit_zero (S := S4x256x2048) hz3, View.ld_unit_zero (S := S32x256) hz2,
    View.ld_unit_zero (S := S1x32) hz2, View.ld_unit_zero (S := S256x32) hz2, View.ld_unit_zero (S := S1x256) hz2]
  obtain ⟨-, -, -, e0, e1, e2, -⟩ := idx_facts t
  have hN : t.val < 16 := lt_of_lt_of_eq t.isLt (show cfg0.N = 16 from N_0)
  funext j
  have hj0 : (j 0).val < 4 := (j 0).isLt
  have hj1 : (j 1).val < 256 := (j 1).isLt
  have hj2 : (j 2).val < 2048 := (j 2).isLt
  have hemb : ((cfg0.win 5).blk t).view.emb j
      = ix3 (⟨4 * t.val + (j 0).val, by omega⟩ : Fin 64) (⟨(j 1).val, hj1⟩ : Fin 256) (⟨(j 2).val, hj2⟩ : Fin 2048) := by
    funext a; apply Fin.ext
    match a with
    | ⟨0, _⟩ => show win0_5.index t (0 : Fin 3) * 4 + 1 * (j 0).val = 4 * t.val + (j 0).val; rw [e0]; omega
    | ⟨1, _⟩ => show win0_5.index t (1 : Fin 3) * 256 + 1 * (j 1).val = (j 1).val; rw [e1]; omega
    | ⟨2, _⟩ => show win0_5.index t (2 : Fin 3) * 2048 + 1 * (j 2).val = (j 2).val; rw [e2]; omega
  show k0_pay1 (iblk m c 0 t) (iblk m c 1 t) (iblk m c 2 t) (iblk m c 3 t) (iblk m c 4 t) j
      = result m c (((cfg0.win 5).blk t).view.emb j)
  rw [hemb]
  unfold result
  rw [G_apply]
  have hj : j = ix3 (⟨(j 0).val, hj0⟩ : Fin 4) (⟨(j 1).val, hj1⟩ : Fin 256) (⟨(j 2).val, hj2⟩ : Fin 2048) := by
    funext a; apply Fin.ext
    match a with
    | ⟨0, _⟩ => rfl
    | ⟨1, _⟩ => rfl
    | ⟨2, _⟩ => rfl
  refine (congrArg (k0_pay1 (iblk m c 0 t) (iblk m c 1 t) (iblk m c 2 t) (iblk m c 3 t) (iblk m c 4 t)) hj).trans ?_
  refine (pay_apply (iblk m c 0 t) (iblk m c 1 t) (iblk m c 2 t) (iblk m c 3 t) (iblk m c 4 t) ⟨(j 0).val, hj0⟩ ⟨(j 1).val, hj1⟩ ⟨(j 2).val, hj2⟩).trans ?_
  refine congrArg₂ (fun a b => a * b) (blk_x m c t _ _ rfl rfl rfl) ?_
  exact gate_congr (fun c' l => blk_x m c t _ _ rfl rfl rfl) (fun mm c' => blk_w1 m c t mm c')
    (fun mm => blk_b1 m c t mm) (fun cc mm => blk_w2 m c t cc mm) (fun cc => blk_b2 m c t cc) _

/-- An index of the array is in point `t`'s block iff each coordinate is in the block's range on its axis. -/
theorem mem_blk (t : Fin cfg0.N) (i : S64x256x2048.Idx) :
    i ∈ ((cfg0.win 5).blk t).view.set ↔ ∀ a : Fin 3, win0_5.index t a * S4x256x2048.size a ≤ (i a).val
      ∧ (i a).val < win0_5.index t a * S4x256x2048.size a + S4x256x2048.size a := by
  show i ∈ ((View.whole main_v4).slice (win0_5.rect t)).set ↔ _
  rw [View.set_slice_whole, Rect.mem_set_unit]
  exact Iff.rfl

/-- The sixteen blocks cover the array: batch element `b` lies in the block of point `b / 4`. -/
theorem cover (i : S64x256x2048.Idx) :
    ∃ t : Fin cfg0.N, (cfg0.win 5).flush t = true ∧ i ∈ ((cfg0.win 5).blk t).view.set := by
  have hi0 : (i 0).val < 64 := (i 0).isLt
  have hi1 : (i 1).val < 256 := (i 1).isLt
  have hi2 : (i 2).val < 2048 := (i 2).isLt
  have hlt : (i 0).val / 4 < cfg0.N := by rw [show cfg0.N = 16 from N_0]; omega
  refine ⟨⟨(i 0).val / 4, hlt⟩, flush0_5 _, ?_⟩
  obtain ⟨-, -, -, e0, e1, e2, -⟩ := idx_facts ⟨(i 0).val / 4, hlt⟩
  rw [mem_blk]
  intro a
  match a with
  | ⟨0, _⟩ =>
    show win0_5.index ⟨(i 0).val / 4, hlt⟩ (0 : Fin 3) * 4 ≤ (i 0).val ∧ (i 0).val < win0_5.index ⟨(i 0).val / 4, hlt⟩ (0 : Fin 3) * 4 + 4
    rw [e0]; show (i 0).val / 4 * 4 ≤ (i 0).val ∧ (i 0).val < (i 0).val / 4 * 4 + 4; omega
  | ⟨1, _⟩ =>
    show win0_5.index ⟨(i 0).val / 4, hlt⟩ (1 : Fin 3) * 256 ≤ (i 1).val ∧ (i 1).val < win0_5.index ⟨(i 0).val / 4, hlt⟩ (1 : Fin 3) * 256 + 256
    rw [e1]; omega
  | ⟨2, _⟩ =>
    show win0_5.index ⟨(i 0).val / 4, hlt⟩ (2 : Fin 3) * 2048 ≤ (i 2).val ∧ (i 2).val < win0_5.index ⟨(i 0).val / 4, hlt⟩ (2 : Fin 3) * 2048 + 2048
    rw [e2]; omega

/-- THE ARRAY after the run is `result`. -/
theorem final (c : Dev nD) : (dats m 0 c).arrAt 5 cfg0.N = result m c :=
  (dats m 0 c).arrAt_eq_of_cover 5 (result m c) (fun t _ => flushed_eq m c t) cover

/-- The run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.SqueezeExcite.KernelSide

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.RefPay.lean ====
/-
  The reference's stored block read at an entry: for the one batch element that a grid point holds, the value
  stored at `(0, c, l)` is the block's entry there times the gate of channel `c`, the gate computed from the
  block's rows, the weight matrices as staged (`[32, 256]` and `[256, 32]`) and the two biases as one-column
  matrices. The reference divides a channel's sum by 2048 and multiplies the weights from the left; over the
  extended reals the quotient is the product with 2⁻¹¹ and the products commute, so the gate is the same function.
-/
import proofs.«130919_g2000605190125749_pallasbulk_600_7_alg».proof.Proof.Gen.ReferenceIdeal.Skeleton
import proofs.«130919_g2000605190125749_pallasbulk_600_7_alg».proof.Proof.Spec
import proofs.«130919_g2000605190125749_pallasbulk_600_7_alg».proof.Proof.LibContractPlain
import proofs.«130919_g2000605190125749_pallasbulk_600_7_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.SqueezeExcite.RefSide

open Idealize.ShloMosaic Idealize.ShloMosaic.ValueIdx Cert.ReferenceIdeal Cert.ReferenceIdeal.Gen Cert.SqueezeExcite

/-- The mean of channel `c'` of the block's one batch element: the sum over the positions divided by 2048, which
    is the sum times 2⁻¹¹. -/
theorem mean_apply (x0 : FVec Ideal S1x256x2048 .f32) (c' : Fin 256) (u : Fin 1) :
    divf (shapeCast S256x1 (multiReduction (F := Ideal) .add [1] S256
            (shapeCast S256x2048 x0 shapeCasts_S1x256x2048_S256x2048) 0x00000000#32 reduces_S256x2048_S256 (.inl rfl) rfl)
          shapeCasts_S256_S256x1)
        (broadcast S256x1 (Scalar.ofBits (F := Ideal) .f32 0x45000000#32)) (ix2 c' u)
      = (∑ l : Fin 2048, x0 (ix3 (0 : Fin 1) c' l)) * Ideal.ofBits .f32 0x3A000000#32 := by
  show Ideal.div (shapeCast S256x1 (multiReduction (F := Ideal) .add [1] S256
            (shapeCast S256x2048 x0 shapeCasts_S1x256x2048_S256x2048) 0x00000000#32 reduces_S256x2048_S256 (.inl rfl) rfl)
          shapeCasts_S256_S256x1 (ix2 c' u)) (Ideal.ofBits .f32 0x45000000#32) = _
  rw [div_2048, Cert.Attn.Layout.shapeCast_a_a1_apply]
  refine congrArg (· * Ideal.ofBits .f32 0x3A000000#32) ?_
  refine (Ideal.multiReduction_add_single (shapeCast S256x2048 x0 shapeCasts_S1x256x2048_S256x2048) 0x00000000#32
    reduces_S256x2048_S256 (.inl rfl) rfl (ix1 c')).trans ?_
  refine Finset.sum_congr rfl fun l _ => ?_
  refine Eq.trans (congrArg (shapeCast S256x2048 x0 shapeCasts_S1x256x2048_S256x2048) ?_) (shapeCast_1ab_ab_apply x0 shapeCasts_S1x256x2048_S256x2048 c' l)
  funext a; apply Fin.ext
  match a with
  | ⟨0, _⟩ => rfl
  | ⟨1, _⟩ => rfl

/-- The hidden layer at `(m, 0)` from any column of means `v`: the staged `[32, 256]` weights times the column, the
    bias column, and the rectifier. -/
theorem hidden_apply (v : FVec Ideal S256x1 .f32) (x1 : FVec Ideal S32x256 .f32) (x2 : FVec Ideal S32x1 .f32)
    (m : Fin 32) (u : Fin 1) :
    maximumf (addf (matmul dot_S32x256_S256x1_S32x1_1_0_0_1_n_n (some .fp32)
            (shapeCast S32x256 x1 shapeCasts_S32x256_S32x256) v (constant (F := Ideal) S32x1 .f32 0x00000000#32))
          (shapeCast S32x1 x2 shapeCasts_S32x1_S32x1))
        (broadcast S32x1 (Scalar.ofBits (F := Ideal) .f32 0x00000000#32)) (ix2 m u)
      = max ((∑ c' : Fin 256, v (ix2 c' u) * x1 (ix2 m c')) + x2 (ix2 m u))
          (Ideal.ofBits .f32 0x00000000#32) := by
  show max (matmul dot_S32x256_S256x1_S32x1_1_0_0_1_n_n (some .fp32)
        (shapeCast S32x256 x1 shapeCasts_S32x256_S32x256) v (constant (F := Ideal) S32x1 .f32 0x00000000#32) (ix2 m u)
      + shapeCast S32x1 x2 shapeCasts_S32x1_S32x1 (ix2 m u)) _ = _
  rw [shapeCast_self, shapeCast_self]
  refine congrArg (fun z => max (z + x2 (ix2 m u)) (Ideal.ofBits .f32 0x00000000#32)) ?_
  refine (Cert.LibContractPlain.matmulPlain_zero_apply 32 256 1 dot_S32x256_S256x1_S32x1_1_0_0_1_n_n_wf (some .fp32) x1 v m u).trans ?_
  exact Finset.sum_congr rfl fun c' _ => mul_comm _ _

/-- The gate at `(c, 0)` from any hidden column `h`: the staged `[256, 32]` weights times the column, the bias
    column, and the logistic function. -/
theorem out_apply (h : FVec Ideal S32x1 .f32) (x3 : FVec Ideal S256x32 .f32) (x4 : FVec Ideal S256x1 .f32)
    (c : Fin 256) (u : Fin 1) :
    logistic (addf (matmul dot_S256x32_S32x1_S256x1_1_0_0_1_n_n (some .fp32)
            (shapeCast S256x32 x3 shapeCasts_S256x32_S256x32) h (constant (F := Ideal) S256x1 .f32 0x00000000#32))
          (shapeCast S256x1 x4 shapeCasts_S256x1_S256x1)) (ix2 c u)
      = Ideal.logistic ((∑ m : Fin 32, h (ix2 m u) * x3 (ix2 c m)) + x4 (ix2 c u)) := by
  show Ideal.logistic (matmul dot_S256x32_S32x1_S256x1_1_0_0_1_n_n (some .fp32)
        (shapeCast S256x32 x3 shapeCasts_S256x32_S256x32) h (constant (F := Ideal) S256x1 .f32 0x00000000#32) (ix2 c u)
      + shapeCast S256x1 x4 shapeCasts_S256x1_S256x1 (ix2 c u)) = _
  rw [shapeCast_self, shapeCast_self]
  refine congrArg (fun z => Ideal.logistic (z + x4 (ix2 c u))) ?_
  refine (Cert.LibContractPlain.matmulPlain_zero_apply 256 32 1 dot_S256x32_S32x1_S256x1_1_0_0_1_n_n_wf (some .fp32) x3 h c u).trans ?_
  exact Finset.sum_congr rfl fun m _ => mul_comm _ _

/-- THE STORED BLOCK AT AN ENTRY: the block's entry times the gate of its channel. -/
theorem pay_apply (x0 : FVec Ideal S1x256x2048 .f32) (x1 : FVec Ideal S32x256 .f32) (x2 : FVec Ideal S32x1 .f32)
    (x3 : FVec Ideal S256x32 .f32) (x4 : FVec Ideal S256x1 .f32) (c : Fin 256) (l : Fin 2048) :
    k0_pay1 (F := Ideal) x0 x1 x2 x3 x4 (ix3 (0 : Fin 1) c l)
      = x0 (ix3 (0 : Fin 1) c l) * gate (fun c' l' => x0 (ix3 (0 : Fin 1) c' l')) (fun m c' => x1 (ix2 m c'))
          (fun m => x2 (ix2 m (0 : Fin 1))) (fun c m => x3 (ix2 c m)) (fun c => x4 (ix2 c (0 : Fin 1))) c := by
  unfold k0_pay1
  dsimp only
  rw [shapeCast_ab_1ab_apply, mulf_apply, shapeCast_1ab_ab_apply]
  refine congrArg (x0 (ix3 (0 : Fin 1) c l) * ·) ?_
  rw [Cert.Attn.Layout.broadcastTo_a1_ab_apply]
  refine (out_apply _ x3 x4 c 0).trans ?_
  unfold gate
  refine congrArg (fun z => Ideal.logistic (z + x4 (ix2 c (0 : Fin 1)))) (Finset.sum_congr rfl fun m _ => ?_)
  refine congrArg (· * x3 (ix2 c m)) ?_
  refine (hidden_apply _ x1 x2 m 0).trans ?_
  refine congrArg (fun z => max (z + x2 (ix2 m (0 : Fin 1))) (Ideal.ofBits .f32 0x00000000#32)) (Finset.sum_congr rfl fun c' _ => ?_)
  exact congrArg (· * x1 (ix2 m c')) (mean_apply x0 c' 0)

end Cert.SqueezeExcite.RefSide

end
-- ==== Proof.RefValue.lean ====
/-
  The reference's result array as one function of the argument arrays.

  The grid has sixty-four points; point `t` holds batch element `t` of the input and writes the same row of the
  result. The two weight arrays reach the body reshaped from `[32, 256, 1]` and `[256, 32, 1]` to matrices and the
  two biases reshaped to one-column matrices, each staged whole at every point. So the block that point `t` writes
  back is block `t` of `G` of the argument arrays, the sixty-four blocks cover the array, and the array ends at `G`.
-/
import proofs.«130919_g2000605190125749_pallasbulk_600_7_alg».proof.Proof.Gen.ReferenceIdeal.Value
import proofs.«130919_g2000605190125749_pallasbulk_600_7_alg».proof.Proof.RefPay
import proofs.«130919_g2000605190125749_pallasbulk_600_7_alg».proof.Proof.LibTrailingUnit
import Idealize.ShloMosaic.Lib.Pipeline.Value
import Idealize.ShloMosaic.Lib.StableHlo.Run
import Idealize.ShloMosaic.Lib.ValueLayout

noncomputable section

open scoped BigOperators

namespace Cert.SqueezeExcite.RefSide

open Idealize.ShloMosaic Idealize.ShloMosaic.TcCoe Idealize.SL.Sem Idealize.ShloMosaic.ValueIdx
open Idealize.ShloMosaic.Pipeline (Dat)
open Cert.ReferenceIdeal Cert.ReferenceIdeal.Gen Cert.SqueezeExcite

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input and the result move along the batch axis with the point, the
    four small operands stay at their one block. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## What the region finds in the four reshaped operands -/

theorem V_w1 (c : Dev nD) : (V m c main_v0 : S32x256.Idx → Elt Ideal .f32)
    = shapeCast S32x256 (m ((c : Thread nD τ).loc main_arg1)) shapeCasts_S32x256x1_S32x256 := by
  dsimp only [V, hostOps0]; after_results; rfl

theorem V_w2 (c : Dev nD) : (V m c main_v1 : S256x32.Idx → Elt Ideal .f32)
    = shapeCast S256x32 (m ((c : Thread nD τ).loc main_arg3)) shapeCasts_S256x32x1_S256x32 := by
  dsimp only [V, hostOps0]; after_results; rfl

theorem V_b1 (c : Dev nD) : (V m c main_v2 : S32x1.Idx → Elt Ideal .f32)
    = shapeCast S32x1 (m ((c : Thread nD τ).loc main_arg2)) shapeCasts_S32_S32x1 := by
  dsimp only [V, hostOps0]; after_results; rfl

theorem V_b2 (c : Dev nD) : (V m c main_v3 : S256x1.Idx → Elt Ideal .f32)
    = shapeCast S256x1 (m ((c : Thread nD τ).loc main_arg4)) shapeCasts_S256_S256x1 := by
  dsimp only [V, hostOps0]; after_results; rfl

/-! ## The blocks the body is given at point `t` -/

/-- The input block at point `t` is batch element `t` of the argument. -/
theorem blk_x (c : Dev nD) (t : Fin cfg0.N) (y : S1x256x2048.Idx) (k : S64x256x2048.Idx)
    (h0 : (k 0).val = t.val) (h1 : (k 1).val = (y 1).val) (h2 : (k 2).val = (y 2).val) :
    (iblk m c 0 t : Vec Ideal S1x256x2048 .f32) y
      = (m ((c : Thread nD τ).loc main_arg0) : S64x256x2048.Idx → Elt Ideal .f32) k := by
  obtain ⟨e0, e1, e2, -⟩ := idx_facts t
  have hy0 : (y 0).val < 1 := (y 0).isLt
  unfold iblk
  rw [View.read_apply]
  show V m c main_arg0 _ = _
  rw [V_main_arg0]
  refine congrArg (m ((c : Thread nD τ).loc main_arg0)) ?_
  funext a; apply Fin.ext
  match a with
  | ⟨0, _⟩ => show win0_0.index t (0 : Fin 3) * 1 + 1 * (y 0).val = (k 0).val; rw [e0, h0]; omega
  | ⟨1, _⟩ => show win0_0.index t (1 : Fin 3) * 256 + 1 * (y 1).val = (k 1).val; rw [e1, h1]; omega
  | ⟨2, _⟩ => show win0_0.index t (2 : Fin 3) * 2048 + 1 * (y 2).val = (k 2).val; rw [e2, h2]; omega

/-- The staged first-layer weights at `(mm, c')` are the argument's at `(mm, c', 0)`. -/
theorem blk_w1 (c : Dev nD) (t : Fin cfg0.N) (mm : Fin 32) (c' : Fin 256) :
    (iblk m c 1 t : Vec Ideal S32x256 .f32) (ix2 mm c')
      = (m ((c : Thread nD τ).loc main_arg1) : S32x256x1.Idx → Elt Ideal .f32) (ix3 mm c' (0 : Fin 1)) := by
  obtain ⟨-, -, -, -, -, -, e0, e1, -⟩ := idx_facts t
  unfold iblk
  rw [View.read_apply]
  show V m c main_v0 _ = _
  rw [V_w1]
  refine Eq.trans (congrArg _ ?_) (Cert.LibTrailingUnit.shapeCast_ab1_ab_apply _ shapeCasts_S32x256x1_S32x256 mm c')
  funext a; apply Fin.ext
  match a with
  | ⟨0, _⟩ => show win0_1.index t (0 : Fin 2) * 32 + 1 * mm.val = mm.val; rw [e0]; omega
  | ⟨1, _⟩ => show win0_1.index t (1 : Fin 2) * 256 + 1 * c'.val = c'.val; rw [e1]; omega

/-- The staged first-layer bias at `(mm, 0)` is the argument's at `mm`. -/
theorem blk_b1 (c : Dev nD) (t : Fin cfg0.N) (mm : Fin 32) :
    (iblk m c 2 t : Vec Ideal S32x1 .f32) (ix2 mm (0 : Fin 1))
      = (m ((c : Thread nD τ).loc main_arg2) : S32.Idx → Elt Ideal .f32) (ix1 mm) := by
  obtain ⟨-, -, -, -, -, -, -, -, e0, e1, -⟩ := idx_facts t
  unfold iblk
  rw [View.read_apply]
  show V m c main_v2 _ = _
  rw [V_b1]
  refine Eq.trans (congrArg _ ?_) (Cert.Attn.Layout.shapeCast_a_a1_apply _ shapeCasts_S32_S32x1 mm (0 : Fin 1))
  funext a; apply Fin.ext
  match a with
  | ⟨0, _⟩ => show win0_2.index t (0 : Fin 2) * 32 + 1 * mm.val = mm.val; rw [e0]; omega
  | ⟨1, _⟩ => show win0_2.index t (1 : Fin 2) * 1 + 1 * 0 = 0; rw [e1]

/-- The staged second-layer weights at `(cc, mm)` are the argument's at `(cc, mm, 0)`. -/
theorem blk_w2 (c : Dev nD) (t : Fin cfg0.N) (cc : Fin 256) (mm : Fin 32) :
    (iblk m c 3 t : Vec Ideal S256x32 .f32) (ix2 cc mm)
      = (m ((c : Thread nD τ).loc main_arg3) : S256x32x1.Idx → Elt Ideal .f32) (ix3 cc mm (0 : Fin 1)) := by
  obtain ⟨-, -, -, -, -, -, -, -, -, -, e0, e1, -⟩ := idx_facts t
  unfold iblk
  rw [View.read_apply]
  show V m c main_v1 _ = _
  rw [V_w2]
  refine Eq.trans (congrArg _ ?_) (Cert.LibTrailingUnit.shapeCast_ab1_ab_apply _ shapeCasts_S256x32x1_S256x32 cc mm)
  funext a; apply Fin.ext
  match a with
  | ⟨0, _⟩ => show win0_3.index t (0 : Fin 2) * 256 + 1 * cc.val = cc.val; rw [e0]; omega
  | ⟨1, _⟩ => show win0_3.index t (1 : Fin 2) * 32 + 1 * mm.val = mm.val; rw [e1]; omega

/-- The staged second-layer bias at `(cc, 0)` is the argument's at `cc`. -/
theorem blk_b2 (c : Dev nD) (t : Fin cfg0.N) (cc : Fin 256) :
    (iblk m c 4 t : Vec Ideal S256x1 .f32) (ix2 cc (0 : Fin 1))
      = (m ((c : Thread nD τ).loc main_arg4) : S256.Idx → Elt Ideal .f32) (ix1 cc) := by
  obtain ⟨-, -, -, -, -, -, -, -, -, -, -, -, e0, e1⟩ := idx_facts t
  unfold iblk
  rw [View.read_apply]
  show V m c main_v3 _ = _
  rw [V_b2]
  refine Eq.trans (congrArg _ ?_) (Cert.Attn.Layout.shapeCast_a_a1_apply _ shapeCasts_S256_S256x1 cc (0 : Fin 1))
  funext a; apply Fin.ext
  match a with
  | ⟨0, _⟩ => show win0_4.index t (0 : Fin 2) * 256 + 1 * cc.val = cc.val; rw [e0]; omega
  | ⟨1, _⟩ => show win0_4.index t (1 : Fin 2) * 1 + 1 * 0 = 0; rw [e1]

/-! ## The result array -/

/-- The result array the reference ends with: `G` of the argument arrays as launched. -/
abbrev result (c : Dev nD) : S64x256x2048.Idx → Elt Ideal .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Cert.ReferenceIdeal.Value.flushed5]
  unfold out0_5
  rw [View.canon_unit_zero hz3]
  simp only [View.ld_unit_zero (S := S1x256x2048) hz3, View.ld_unit_zero (S := S32x256) hz2,
    View.ld_unit_zero (S := S32x1) hz2, View.ld_unit_zero (S := S256x32) hz2, View.ld_unit_zero (S := S256x1) hz2]
  obtain ⟨-, -, -, e0, e1, e2, -⟩ := idx_facts t
  have hN : t.val < 64 := lt_of_lt_of_eq t.isLt (show cfg0.N = 64 from N_0)
  funext j
  have hj0 : (j 0).val < 1 := (j 0).isLt
  have hj1 : (j 1).val < 256 := (j 1).isLt
  have hj2 : (j 2).val < 2048 := (j 2).isLt
  have hemb : ((cfg0.win 5).blk t).view.emb j
      = ix3 (⟨t.val, hN⟩ : Fin 64) (⟨(j 1).val, hj1⟩ : Fin 256) (⟨(j 2).val, hj2⟩ : Fin 2048) := by
    funext a; apply Fin.ext
    match a with
    | ⟨0, _⟩ => show win0_5.index t (0 : Fin 3) * 1 + 1 * (j 0).val = t.val; rw [e0]; omega
    | ⟨1, _⟩ => show win0_5.index t (1 : Fin 3) * 256 + 1 * (j 1).val = (j 1).val; rw [e1]; omega
    | ⟨2, _⟩ => show win0_5.index t (2 : Fin 3) * 2048 + 1 * (j 2).val = (j 2).val; rw [e2]; omega
  show k0_pay1 (iblk m c 0 t) (iblk m c 1 t) (iblk m c 2 t) (iblk m c 3 t) (iblk m c 4 t) j
      = result m c (((cfg0.win 5).blk t).view.emb j)
  rw [hemb]
  unfold result
  rw [G_apply]
  have hj : j = ix3 (0 : Fin 1) (⟨(j 1).val, hj1⟩ : Fin 256) (⟨(j 2).val, hj2⟩ : Fin 2048) := by
    funext a; apply Fin.ext
    match a with
    | ⟨0, _⟩ => show (j 0).val = 0; omega
    | ⟨1, _⟩ => rfl
    | ⟨2, _⟩ => rfl
  refine (congrArg (k0_pay1 (iblk m c 0 t) (iblk m c 1 t) (iblk m c 2 t) (iblk m c 3 t) (iblk m c 4 t)) hj).trans ?_
  refine (pay_apply (iblk m c 0 t) (iblk m c 1 t) (iblk m c 2 t) (iblk m c 3 t) (iblk m c 4 t) ⟨(j 1).val, hj1⟩ ⟨(j 2).val, hj2⟩).trans ?_
  refine congrArg₂ (fun a b => a * b) (blk_x m c t _ _ rfl rfl rfl) ?_
  exact gate_congr (fun c' l => blk_x m c t _ _ rfl rfl rfl) (fun mm c' => blk_w1 m c t mm c')
    (fun mm => blk_b1 m c t mm) (fun cc mm => blk_w2 m c t cc mm) (fun cc => blk_b2 m c t cc) _

/-- An index of the array is in point `t`'s block iff each coordinate is in the block's range on its axis. -/
theorem mem_blk (t : Fin cfg0.N) (i : S64x256x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v4).slice (win0_5.rect t)).set ↔ _
  rw [View.set_slice_whole, Rect.mem_set_unit]
  exact Iff.rfl

/-- The sixty-four blocks cover the array: batch element `b` is the block of point `b`. -/
theorem cover (i : S64x256x2048.Idx) :
    ∃ t : Fin cfg0.N, (cfg0.win 5).flush t = true ∧ i ∈ ((cfg0.win 5).blk t).view.set := by
  have hi0 : (i 0).val < 64 := (i 0).isLt
  have hi1 : (i 1).val < 256 := (i 1).isLt
  have hi2 : (i 2).val < 2048 := (i 2).isLt
  have hlt : (i 0).val < cfg0.N := by rw [show cfg0.N = 64 from N_0]; omega
  refine ⟨⟨(i 0).val, hlt⟩, flush0_5 _, ?_⟩
  obtain ⟨-, -, -, e0, e1, e2, -⟩ := idx_facts ⟨(i 0).val, hlt⟩
  rw [mem_blk]
  intro a
  match a with
  | ⟨0, _⟩ =>
    show win0_5.index ⟨(i 0).val, hlt⟩ (0 : Fin 3) * 1 ≤ (i 0).val ∧ (i 0).val < win0_5.index ⟨(i 0).val, hlt⟩ (0 : Fin 3) * 1 + 1
    rw [e0]; show (i 0).val * 1 ≤ (i 0).val ∧ (i 0).val < (i 0).val * 1 + 1; omega
  | ⟨1, _⟩ =>
    show win0_5.index ⟨(i 0).val, hlt⟩ (1 : Fin 3) * 256 ≤ (i 1).val ∧ (i 1).val < win0_5.index ⟨(i 0).val, hlt⟩ (1 : Fin 3) * 256 + 256
    rw [e1]; omega
  | ⟨2, _⟩ =>
    show win0_5.index ⟨(i 0).val, hlt⟩ (2 : Fin 3) * 2048 ≤ (i 2).val ∧ (i 2).val < win0_5.index ⟨(i 0).val, hlt⟩ (2 : Fin 3) * 2048 + 2048
    rw [e2]; omega

/-- THE ARRAY after the run is `result`. -/
theorem final (c : Dev nD) : (dats m 0 c).arrAt 5 cfg0.N = result m c :=
  (dats m 0 c).arrAt_eq_of_cover 5 (result m c) (fun t _ => flushed_eq m c t) cover

/-- The run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.ReferenceIdeal.Value.run_blocks m ρ)

end Cert.SqueezeExcite.RefSide

end
-- ==== Proof.lean ====
/-
  Squeeze-and-excitation over the 256 channels of a [64, 256, 2048] array: a kernel that takes four batch elements per
  grid point (sixteen points) against a reference that takes one (sixty-four points).

  Both programs compute, at `(b, c, l)`,

      x (b, c, l) · logistic (∑ m, max (∑ c', mean (b, c') · w1 (m, c') + b1 m) 0 · w2 (c, m) + b2 c),

  where `mean (b, c')` is the sum of `x (b, c', ·)` over the 2048 positions scaled by 1 / 2048. They differ in three
  ways, none of which changes the value over the extended reals. The kernel multiplies the sum by the word that
  denotes 2⁻¹¹ and the reference divides it by the word that denotes 2048: a quotient by a nonzero real is the product
  with its reciprocal at every extended real. The kernel writes both matrix products as row vectors times a
  transposed weight matrix, the reference as a weight matrix times a column: the products of the entries commute.
  The kernel stages the biases as one-row matrices and the reference as one-column matrices: the same entries. The
  precondition (finite inputs) is not used.

  Each program's frame is the generated one. The idealized kernel is the kernel's own text (the ledger is empty).
  For the value claim each side's result array is shown to be the one function `G` of the argument arrays
  (Proof/Spec.lean): the stored block at an entry (Proof/KernelPay.lean, Proof/RefPay.lean), then the blocks put
  together over the grid (Proof/KernelValue.lean, Proof/RefValue.lean).
-/
import proofs.«130919_g2000605190125749_pallasbulk_600_7_alg».proof.Defs
import proofs.«130919_g2000605190125749_pallasbulk_600_7_alg».proof.Proof.Gen.Kernel
import proofs.«130919_g2000605190125749_pallasbulk_600_7_alg».proof.Proof.Gen.Kernel.Frame
import proofs.«130919_g2000605190125749_pallasbulk_600_7_alg».proof.Proof.Gen.KernelIdeal
import proofs.«130919_g2000605190125749_pallasbulk_600_7_alg».proof.Proof.Gen.KernelIdeal.Frame
import proofs.«130919_g2000605190125749_pallasbulk_600_7_alg».proof.Proof.Gen.KernelIdeal.Value
import proofs.«130919_g2000605190125749_pallasbulk_600_7_alg».proof.Proof.Gen.ReferenceIdeal
import proofs.«130919_g2000605190125749_pallasbulk_600_7_alg».proof.Proof.Gen.ReferenceIdeal.Frame
import proofs.«130919_g2000605190125749_pallasbulk_600_7_alg».proof.Proof.Gen.ReferenceIdeal.Value
import proofs.«130919_g2000605190125749_pallasbulk_600_7_alg».proof.Proof.Gen.Pre_finite_inputs
import proofs.«130919_g2000605190125749_pallasbulk_600_7_alg».proof.Proof.KernelValue
import proofs.«130919_g2000605190125749_pallasbulk_600_7_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- The ideal pass rewrote nothing. -/
theorem preserves : Cert.preserves_Kernel_KernelIdeal := trivial

/-- Both result arrays end at `G` of their argument arrays, and the argument arrays agree. -/
theorem algebraic : Cert.algebraic_KernelIdeal_ReferenceIdeal := by
  intro m ρ m' ρ' _ hagree
  refine ⟨fun c => Cert.SqueezeExcite.KernelSide.result m c, Cert.SqueezeExcite.KernelSide.run m ρ, ?_⟩
  refine (θ_run Cert.ReferenceIdeal.defs _ _).mono (fun r h c => ⟨(h c).1.trans ?_, (h c).2⟩)
    (Cert.SqueezeExcite.RefSide.run m' ρ')
  unfold Cert.SqueezeExcite.RefSide.result Cert.SqueezeExcite.KernelSide.result
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
